-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x256x2 : Shape := ⟨3, ![256, 256, 2]⟩
abbrev S256x2 : Shape := ⟨2, ![256, 2]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x256x2 : S_.BroadcastsInDim S256x256x2 (![] : Fin 0 → Fin S256x256x2.rank)
  reducesTo_S256x256x2_S_d0_1_2 : S256x256x2.ReducesTo [0, 1, 2] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S2048x256 .f32) (main_arg1 : FVec F S256x256x2 .f32) (main_arg2 : FVec F S256x2 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x256x2 .f32 := Host.absf main_arg1
  let main_cst_0 : FVec F S_ .f32 := constant S_ .f32 0x7F800000#32
  let main_v5 : FVec F S256x256x2 .f32 := broadcastInDim S256x256x2 ![] bcast_S_S256x256x2 main_cst_0
  let main_v6 : IVec S256x256x2 1 := cmpf .olt main_v4 main_v5
  let main_c_1 : IVec S_ 1 := constantI S_ 1 1#1
  let main_v7 : IVec S_ 1 := (fun x v => Host.reduce IntOp.andi x v reducesTo_S256x256x2_S_d0_1_2 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  main_v13
-- ==== Kernel.lean ====
abbrev S2048x256 : Shape := ⟨2, ![2048, 256]⟩
abbrev S256x256x2 : Shape := ⟨3, ![256, 256, 2]⟩
abbrev S256x2 : Shape := ⟨2, ![256, 2]⟩
abbrev S_ : Shape := ⟨0, ![]⟩
abbrev S256x256 : Shape := ⟨2, ![256, 256]⟩
abbrev S256x256x1 : Shape := ⟨3, ![256, 256, 1]⟩
abbrev S256 : Shape := ⟨1, ![256]⟩
abbrev S256x1 : Shape := ⟨2, ![256, 1]⟩
abbrev S1x256 : Shape := ⟨2, ![1, 256]⟩
abbrev S128x256 : Shape := ⟨2, ![128, 256]⟩
abbrev S1x128 : Shape := ⟨2, ![1, 128]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 42
  | .vmem => 10
  | .smem => 0
  | _ => 0

abbrev bufTy : (tb : Table) → Fin (tcTables nBuf tb) → BufTy
  | .hbm, ⟨0, _⟩ => ⟨S2048x256, .f32⟩
  | .hbm, ⟨1, _⟩ => ⟨S256x256x2, .f32⟩
  | .hbm, ⟨2, _⟩ => ⟨S256x2, .f32⟩
  | .hbm, ⟨3, _⟩ => ⟨S_, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256x1, .f32⟩
  | .hbm, ⟨9, _⟩ => ⟨S256x256x2, .f32⟩
  | .hbm, ⟨10, _⟩ => ⟨S256x256x2, .f32⟩
  | .hbm, ⟨11, _⟩ => ⟨S256x256x2, .f32⟩
  | .hbm, ⟨12, _⟩ => ⟨S_, .f32⟩
  | .hbm, ⟨13, _⟩ => ⟨S256x256, .f32⟩
  | .hbm, ⟨14, _⟩ => ⟨S256x256x1, .f32⟩
  | .hbm, ⟨15, _⟩ => ⟨S256x256x2, .f32⟩
  | .hbm, ⟨16, _⟩ => ⟨S256x256x2, .f32⟩
  | .hbm, ⟨17, _⟩ => ⟨S_, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256x1, .f32⟩
  | .hbm, ⟨23, _⟩ => ⟨S256x2, .f32⟩
  | .hbm, ⟨24, _⟩ => ⟨S256x2, .f32⟩
  | .hbm, ⟨25, _⟩ => ⟨S256x2, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S256x2, .f32⟩
  | .hbm, ⟨30, _⟩ => ⟨S256x2, .f32⟩
  | .hbm, ⟨31, _⟩ => ⟨S256x256x1, .f32⟩
  | .hbm, ⟨32, _⟩ => ⟨S256x256, .f32⟩
  | .hbm, ⟨33, _⟩ => ⟨S256x256x1, .f32⟩
  | .hbm, ⟨34, _⟩ => ⟨S256x256, .f32⟩
  | .hbm, ⟨35, _⟩ => ⟨S256x1, .f32⟩
  | .hbm, ⟨36, _⟩ => ⟨S256, .f32⟩
  | .hbm, ⟨37, _⟩ => ⟨S1x256, .f32⟩
  | .hbm, ⟨38, _⟩ => ⟨S256x1, .f32⟩
  | .hbm, ⟨39, _⟩ => ⟨S256, .f32⟩
  | .hbm, ⟨40, _⟩ => ⟨S1x256, .f32⟩
  | .hbm, ⟨41, _⟩ => ⟨S2048x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_cst_2 : Ref sig .tc := ⟨.hbm, 17, rfl⟩
abbrev main_call0_v11 : Ref sig .tc := ⟨.hbm, 18, rfl⟩
abbrev main_call0_cst_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_cst_4 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_call0_v26 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_v30 : Ref sig .tc := ⟨.hbm, 39, rfl⟩
abbrev main_call0_v31 : Ref sig .tc := ⟨.hbm, 40, rfl⟩
abbrev main_v0 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2_i32 : BitVec 32 := 2#32
  let v8 : BitVec 32 := Scalar.addi c0_i32 c2_i32
  let c1_i32 : BitVec 32 := 1#32
  ⟨c0_i32, v8, c1_i32⟩
def k0_mult1 (k0_t1 : Fin k0_t1_loop.trips) : BitVec 32 :=
  let c0_i32_16 : BitVec 32 := 0#32
  let c0_i32 : BitVec 32 := 0#32
  let c1_i32 : BitVec 32 := 1#32
  let arg10 : BitVec 32 := Scf.iv c0_i32 c1_i32 k0_t1
  let c1_i32_15 : BitVec 32 := 1#32
  let v21 : BitVec 32 := Scalar.muli arg10 c1_i32_15
  let v22 : BitVec 32 := Scalar.addi c0_i32_16 v21
  let c128_i32 : BitVec 32 := 128#32
  let v23 : BitVec 32 := Scalar.muli v22 c128_i32
  v23
def k0_off1 (k0_t1 : Fin k0_t1_loop.trips) : Fin 2 → Nat :=
  let c0_17 : Index := 0#32
  let c0_i32_16 : BitVec 32 := 0#32
  let c0_i32 : BitVec 32 := 0#32
  let c1_i32 : BitVec 32 := 1#32
  let arg10 : BitVec 32 := Scf.iv c0_i32 c1_i32 k0_t1
  let c1_i32_15 : BitVec 32 := 1#32
  let v21 : BitVec 32 := Scalar.muli arg10 c1_i32_15
  let v22 : BitVec 32 := Scalar.addi c0_i32_16 v21
  let c128_i32 : BitVec 32 := 128#32
  let v23 : BitVec 32 := Scalar.muli v22 c128_i32
  let v24 : BitVec 32 := v23
  let v25 : Index := Scalar.indexCast v24
  ![0, v25.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S256x256x2_S256x256_d2 : S256x256x2.ReducesTo [2] S256x256
  h_S_ : 0 < S_.numel
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256x1_S256x256x2_0_1_2 : S256x256x1.BroadcastsInDim S256x256x2 (![0, 1, 2] : Fin 3 → Fin S256x256x2.rank)
  reducesTo_S256x2_S256_d1 : S256x2.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  slices_S256x256x2_S256x256x1_0_0_0 : S256x256x2.Slices ![0, 0, 0] S256x256x1
  shapeCasts_S256x256x1_S256x256 : S256x256x1.ShapeCasts S256x256
  slices_S256x256x2_S256x256x1_0_0_1 : S256x256x2.Slices ![0, 0, 1] S256x256x1
  slices_S256x2_S256x1_0_0 : S256x2.Slices ![0, 0] S256x1
  shapeCasts_S256x1_S256 : S256x1.ShapeCasts S256
  shapeCasts_S256_S1x256 : S256.ShapeCasts S1x256
  slices_S256x2_S256x1_0_1 : S256x2.Slices ![0, 1] S256x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S2048x256.size a
  hwx0_0 : ∀ i : grid0.Coords, EltTy.bits .f32 = 32 ∨ (Rect.block (s := S2048x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S256x256.size a
  hwx0_1 : ∀ i : grid0.Coords, EltTy.bits .f32 = 32 ∨ (Rect.block (s := S256x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S256x256.size a
  hwx0_2 : ∀ i : grid0.Coords, EltTy.bits .f32 = 32 ∨ (Rect.block (s := S256x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x256.size a
  hwx0_3 : ∀ i : grid0.Coords, EltTy.bits .f32 = 32 ∨ (Rect.block (s := S1x256) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S2048x256.size a
  hwx0_5 : ∀ i : grid0.Coords, EltTy.bits .f32 = 32 ∨ (Rect.block (s := S2048x256) S128x128.size (cc0_transform_5 i) (hinb0_5 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v23) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v25) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x256x2 : Shape := ⟨3, ![256, 256, 2]⟩
abbrev S256x2 : Shape := ⟨2, ![256, 2]⟩
abbrev S_ : Shape := ⟨0, ![]⟩
abbrev S256x256 : Shape := ⟨2, ![256, 256]⟩
abbrev S256x256x1 : Shape := ⟨3, ![256, 256, 1]⟩
abbrev S256 : Shape := ⟨1, ![256]⟩
abbrev S256x1 : Shape := ⟨2, ![256, 1]⟩
abbrev S2048x1x256 : Shape := ⟨3, ![2048, 1, 256]⟩
abbrev S1x256x256 : Shape := ⟨3, ![1, 256, 256]⟩
abbrev S2048x256x256 : Shape := ⟨3, ![2048, 256, 256]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x256x2, .f32⟩
  | .hbm, ⟨2, _⟩ => ⟨S256x2, .f32⟩
  | .hbm, ⟨3, _⟩ => ⟨S_, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256x1, .f32⟩
  | .hbm, ⟨9, _⟩ => ⟨S256x256x2, .f32⟩
  | .hbm, ⟨10, _⟩ => ⟨S256x256x2, .f32⟩
  | .hbm, ⟨11, _⟩ => ⟨S256x256x2, .f32⟩
  | .hbm, ⟨12, _⟩ => ⟨S_, .f32⟩
  | .hbm, ⟨13, _⟩ => ⟨S256x256, .f32⟩
  | .hbm, ⟨14, _⟩ => ⟨S256x256x1, .f32⟩
  | .hbm, ⟨15, _⟩ => ⟨S256x256x2, .f32⟩
  | .hbm, ⟨16, _⟩ => ⟨S256x256x2, .f32⟩
  | .hbm, ⟨17, _⟩ => ⟨S_, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256x1, .f32⟩
  | .hbm, ⟨23, _⟩ => ⟨S256x2, .f32⟩
  | .hbm, ⟨24, _⟩ => ⟨S256x2, .f32⟩
  | .hbm, ⟨25, _⟩ => ⟨S256x2, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S256x2, .f32⟩
  | .hbm, ⟨30, _⟩ => ⟨S256x2, .f32⟩
  | .hbm, ⟨31, _⟩ => ⟨S256x256x1, .f32⟩
  | .hbm, ⟨32, _⟩ => ⟨S256x256, .f32⟩
  | .hbm, ⟨33, _⟩ => ⟨S256x256x1, .f32⟩
  | .hbm, ⟨34, _⟩ => ⟨S256x256, .f32⟩
  | .hbm, ⟨35, _⟩ => ⟨S2048x1x256, .f32⟩
  | .hbm, ⟨36, _⟩ => ⟨S1x256x256, .f32⟩
  | .hbm, ⟨37, _⟩ => ⟨S2048x256x256, .f32⟩
  | .hbm, ⟨38, _⟩ => ⟨S2048x256x256, .f32⟩
  | .hbm, ⟨39, _⟩ => ⟨S2048x256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S1x256x256, .f32⟩
  | .hbm, ⟨44, _⟩ => ⟨S2048x256x256, .f32⟩
  | .hbm, ⟨45, _⟩ => ⟨S2048x256x256, .f32⟩
  | .hbm, ⟨46, _⟩ => ⟨S_, .f32⟩
  | .hbm, ⟨47, _⟩ => ⟨S2048x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S1x256x256, .f32⟩
  | .hbm, ⟨52, _⟩ => ⟨S2048x256x256, .f32⟩
  | .hbm, ⟨53, _⟩ => ⟨S2048x256x256, .f32⟩
  | .hbm, ⟨54, _⟩ => ⟨S_, .f32⟩
  | .hbm, ⟨55, _⟩ => ⟨S2048x256, .f32⟩
  | .hbm, ⟨56, _⟩ => ⟨S256x1, .f32⟩
  | .hbm, ⟨57, _⟩ => ⟨S256, .f32⟩
  | .hbm, ⟨58, _⟩ => ⟨S1x256, .f32⟩
  | .hbm, ⟨59, _⟩ => ⟨S2048x256, .f32⟩
  | .hbm, ⟨60, _⟩ => ⟨S2048x256, .f32⟩
  | .hbm, ⟨61, _⟩ => ⟨S256x1, .f32⟩
  | .hbm, ⟨62, _⟩ => ⟨S256, .f32⟩
  | .hbm, ⟨63, _⟩ => ⟨S1x256, .f32⟩
  | .hbm, ⟨64, _⟩ => ⟨S2048x256, .f32⟩
  | .hbm, ⟨65, _⟩ => ⟨S2048x256, .f32⟩
  | .hbm, ⟨66, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]

class Facts₀ : Prop where
  reducesTo_S256x256x2_S256x256_d2 : S256x256x2.ReducesTo [2] S256x256
  h_S_ : 0 < S_.numel
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256x1_S256x256x2_0_1_2 : S256x256x1.BroadcastsInDim S256x256x2 (![0, 1, 2] : Fin 3 → Fin S256x256x2.rank)
  reducesTo_S256x2_S256_d1 : S256x2.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  slices_S256x256x2_S256x256x1_0_0_0 : S256x256x2.Slices ![0, 0, 0] S256x256x1
  shapeCasts_S256x256x1_S256x256 : S256x256x1.ShapeCasts S256x256
  slices_S256x256x2_S256x256x1_0_0_1 : S256x256x2.Slices ![0, 0, 1] S256x256x1
  bcast_S2048x256_S2048x1x256_0_2 : S2048x256.BroadcastsInDim S2048x1x256 (![0, 2] : Fin 2 → Fin S2048x1x256.rank)
  bcast_S256x256_S1x256x256_1_2 : S256x256.BroadcastsInDim S1x256x256 (![1, 2] : Fin 2 → Fin S1x256x256.rank)
  bcast_S2048x1x256_S2048x256x256_0_1_2 : S2048x1x256.BroadcastsInDim S2048x256x256 (![0, 1, 2] : Fin 3 → Fin S2048x256x256.rank)
  bcast_S1x256x256_S2048x256x256_0_1_2 : S1x256x256.BroadcastsInDim S2048x256x256 (![0, 1, 2] : Fin 3 → Fin S2048x256x256.rank)
  reducesTo_S2048x256x256_S2048x256_d2 : S2048x256x256.ReducesTo [2] S2048x256
  slices_S256x2_S256x1_0_0 : S256x2.Slices ![0, 0] S256x1
  shapeCasts_S256x1_S256 : S256x1.ShapeCasts S256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  slices_S256x2_S256x1_0_1 : S256x2.Slices ![0, 1] S256x1

variable [Facts₀]

class Facts : Prop extends Facts₀ where

variable [Facts]
-- ==== Proof.BodyRun.lean ====
/-
  What one grid point's run of the kernel body leaves in the output block, as ONE term over the body's
  arithmetic.

  The body fills two accumulators with +∞ and −∞, then makes two trips over the feature axis: trip `k` loads
  columns 128·k … 128·k+127 of the three input blocks, and replaces each accumulator by its minimum (maximum)
  with the trip's lane extremum. After the trips it stores "min-accumulator · n0 + max-accumulator · n1".
  So the block is the last store's value at accumulators that are the second trip's value at the first
  trip's value at the initial fill — read off the run's recorded stores, each a store of a whole block.
-/
import proofs.«150702_j80041010528656_2_alg».proof.Proof.Gen.KernelIdeal.Frame
import Idealize.ShloMosaic.Lib.Pipeline.Value

set_option maxRecDepth 16384

noncomputable section

namespace Cert.EdgeNode.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The loop makes exactly two trips. -/
theorem trips_eq : k0_t1_loop.trips = 2 := by decide

/-- The first and the second trip. -/
abbrev trip0 : Fin k0_t1_loop.trips := ⟨0, by decide⟩
abbrev trip1 : Fin k0_t1_loop.trips := ⟨1, by decide⟩

/-- The columns trip `k` loads of a [128, 256] block: a [128, 128] rectangle at column offset 128·k. -/
abbrev chunk (k : Fin k0_t1_loop.trips) : Rect S128x256 :=
  Rect.unit (s := S128x256) (k0_off1 k) S128x128.size (k0_off1_inb k)

/-- The whole [128, 128] block as a rectangle, as the body's accumulator loads and stores spell it. -/
abbrev wholeAcc : Rect S128x128 := Rect.unit (s := S128x128) ![0, 0] S128x128.size inb_S128x128_S128x128_0_0

theorem zero2 : (![0, 0] : Fin 2 → Nat) = fun _ => 0 := by
  funext a; match a with | ⟨0, _⟩ => rfl | ⟨1, _⟩ => rfl

/-- A load of the whole block, after stores over unwritten contents the LAST of which stored the whole block,
    reads that last store's value. -/
theorem readAt_whole_after_whole_store {sig : RefSig} {κ : Kind} {sp : Space} {S : Shape} {e : EltTy}
    (v : View sig κ sp S e) {off : Fin S.rank → Nat} (h : off = fun _ => 0) (inb : ∀ a, off a + S.size a ≤ S.size a)
    (w : S.Idx → Elt F e) (L : List (View.Piece (Elt F) S e)) :
    v.readAt (Elt F) (Rect.unit off S.size inb).toLoadRect (v.writes (Elt F) v.junk (⟨Rect.unit off S.size inb, w⟩ :: L)) = w := by
  rw [View.readAt_writes_junk_eq_canon]
  funext j
  rw [View.canon_cons_unit_zero h inb w L]
  exact congrFun (View.ld_unit_zero h inb w) j

/-- Trip `k`'s one store into the minimum accumulator: the whole block, at the trip's value of the three chunks it
    loads and of what it finds in the accumulator. -/
theorem trip_min_piece (𝒱 : Variants) (c : Dev nD) (bd : Option 𝒱.V) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole)
    (X2 : BufTy.Contents (Elt F) arg2.view.ty) (X3 : BufTy.Contents (Elt F) arg3.view.ty) (X4 : BufTy.Contents (Elt F) arg4.view.ty)
    (k : Fin k0_t1_loop.trips) (f8 : BufTy.Contents (Elt F) arg8.view.ty) (f9 : BufTy.Contents (Elt F) arg9.view.ty) :
    (trip_k0_t1 (F := F) 𝒱 c bd i arg2 harg2 arg3 harg3 arg4 harg4 arg5 harg5 arg6 harg6 arg7 harg7 arg8 harg8 arg9 harg9 X2 X3 X4 k).1 f8 f9
      = [⟨wholeAcc, k0_pay6 (View.readAt (Elt F) arg2.view (chunk k).toLoadRect X2) (View.readAt (Elt F) arg3.view (chunk k).toLoadRect X3)
            (View.readAt (Elt F) arg4.view (chunk k).toLoadRect X4) (View.readAt (Elt F) arg8.view wholeAcc.toLoadRect f8)⟩] := by
  unfold trip_k0_t1; rfl

/-- Trip `k`'s one store into the maximum accumulator, likewise. -/
theorem trip_max_piece (𝒱 : Variants) (c : Dev nD) (bd : Option 𝒱.V) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole)
    (X2 : BufTy.Contents (Elt F) arg2.view.ty) (X3 : BufTy.Contents (Elt F) arg3.view.ty) (X4 : BufTy.Contents (Elt F) arg4.view.ty)
    (k : Fin k0_t1_loop.trips) (f8 : BufTy.Contents (Elt F) arg8.view.ty) (f9 : BufTy.Contents (Elt F) arg9.view.ty) :
    (trip_k0_t1 (F := F) 𝒱 c bd i arg2 harg2 arg3 harg3 arg4 harg4 arg5 harg5 arg6 harg6 arg7 harg7 arg8 harg8 arg9 harg9 X2 X3 X4 k).2.1 f8 f9
      = [⟨wholeAcc, k0_pay7 (View.readAt (Elt F) arg2.view (chunk k).toLoadRect X2) (View.readAt (Elt F) arg3.view (chunk k).toLoadRect X3)
            (View.readAt (Elt F) arg4.view (chunk k).toLoadRect X4) (View.readAt (Elt F) arg9.view wholeAcc.toLoadRect f9)⟩] := by
  unfold trip_k0_t1; rfl

/-- The minimum accumulator after both trips, from the three input blocks and the accumulator's initial fill. -/
def accMin (x0 x1 x2 : Vec F S128x256 .f32) (g : Vec F S128x128 .f32) : FVec F S128x128 .f32 :=
  k0_pay6 (View.ld x0 (chunk trip1)) (View.ld x1 (chunk trip1)) (View.ld x2 (chunk trip1))
    (k0_pay6 (View.ld x0 (chunk trip0)) (View.ld x1 (chunk trip0)) (View.ld x2 (chunk trip0)) g)

/-- The maximum accumulator after both trips. -/
def accMax (x0 x1 x2 : Vec F S128x256 .f32) (g : Vec F S128x128 .f32) : FVec F S128x128 .f32 :=
  k0_pay7 (View.ld x0 (chunk trip1)) (View.ld x1 (chunk trip1)) (View.ld x2 (chunk trip1))
    (k0_pay7 (View.ld x0 (chunk trip0)) (View.ld x1 (chunk trip0)) (View.ld x2 (chunk trip0)) g)

/-- The stores of the two trips, in both accumulators, from initial fills `g8`, `g9` stored whole: the second trip's
    store in front of the first's, each at what the stores before it left. -/
theorem pb_two (𝒱 : Variants) (c : Dev nD) (bd : Option 𝒱.V) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole)
    (x0 x1 x2 : Vec F S128x256 .f32) (g8 g9 : Vec F S128x128 .f32) :
    pb_k0_t1 (F := F) 𝒱 c bd i arg2 harg2 arg3 harg3 arg4 harg4 arg5 harg5 arg6 harg6 arg7 harg7 arg8 harg8 arg9 harg9 (harg2.unread x0) (harg3.unread x1) (harg4.unread x2)
        (arg8.view.writes (Elt F) arg8.view.junk [⟨wholeAcc, g8⟩]) (arg9.view.writes (Elt F) arg9.view.junk [⟨wholeAcc, g9⟩]) 2
      = ([⟨wholeAcc, accMin x0 x1 x2 g8⟩,
          ⟨wholeAcc, k0_pay6 (View.ld x0 (chunk trip0)) (View.ld x1 (chunk trip0)) (View.ld x2 (chunk trip0)) g8⟩],
         [⟨wholeAcc, accMax x0 x1 x2 g9⟩,
          ⟨wholeAcc, k0_pay7 (View.ld x0 (chunk trip0)) (View.ld x1 (chunk trip0)) (View.ld x2 (chunk trip0)) g9⟩]) := by
  have hz0 : pb_k0_t1 (F := F) 𝒱 c bd i arg2 harg2 arg3 harg3 arg4 harg4 arg5 harg5 arg6 harg6 arg7 harg7 arg8 harg8 arg9 harg9 (harg2.unread x0) (harg3.unread x1) (harg4.unread x2)
        (arg8.view.writes (Elt F) arg8.view.junk [⟨wholeAcc, g8⟩]) (arg9.view.writes (Elt F) arg9.view.junk [⟨wholeAcc, g9⟩]) 0 = ([], []) := rfl
  rw [show (2 : ℕ) = (trip1 : Fin k0_t1_loop.trips).val + 1 from rfl, pb_k0_t1_succ]
  rw [show (trip1 : Fin k0_t1_loop.trips).val = (trip0 : Fin k0_t1_loop.trips).val + 1 from rfl, pb_k0_t1_succ]
  simp only [trip_min_piece, trip_max_piece]
  rw [hz0]
  simp only [List.append_nil, View.writes_nil, ← View.writes_append, List.cons_append, List.nil_append,
    readAt_whole_after_whole_store (F := F) (S := S128x128) _ zero2]
  simp only [View.readAt_eq_ld, harg2.read_unread, harg3.read_unread, harg4.read_unread, accMin, accMax,
    View.read_writes_junk_eq_canon, View.canon_cons_unit_zero (S := S128x128) zero2, View.ld_unit_zero (S := S128x128) zero2]

/-- THE OUTPUT BLOCK a grid point's body leaves, from the point's five input blocks: the last store's value at the
    two accumulators after both trips, each started from its fill. -/
theorem block_eq (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole)
    (x0 x1 x2 : Vec F S128x256 .f32) (x3 x4 : Vec F S1x128 .f32) :
    out0_A_5 c i arg2 harg2 arg3 harg3 arg4 harg4 arg5 harg5 arg6 harg6 arg7 harg7 arg8 harg8 arg9 harg9 x0 x1 x2 x3 x4
      = k0_pay3 x3 x4 (accMin x0 x1 x2 (k0_pay1 (F := F))) (accMax x0 x1 x2 (k0_pay2 (F := F))) := by
  unfold out0_A_5
  rw [View.read_writes_eq_canon _ _ _ (cover0_A_5 c i arg2 harg2 arg3 harg3 arg4 harg4 arg5 harg5 arg6 harg6 arg7 harg7 arg8 harg8 arg9 harg9 x0 x1 x2 x3 x4)]
  unfold kernelRun0_A
  dsimp only
  sl_unfold_run_names
  rw [View.canon_unit_zero (S := S128x128) zero2]
  rw [show Scf.trips k0_t1_loop.lb k0_t1_loop.ub k0_t1_loop.st = 2 from trips_eq, pb_two]
  simp only [List.cons_append, List.nil_append, readAt_whole_after_whole_store (F := F) (S := S128x128) _ zero2]
  simp only [View.readAt_eq_ld, harg5.read_unread, harg6.read_unread, View.ld_unit_zero (S := S1x128) zero2]

end Cert.EdgeNode.Kernel

end
-- ==== Proof.Spec.lean ====
/-
  The function both programs compute, stated once over the argument arrays.

  For a batch row `b` and an output unit `o`, with `pe[o,i]` / `pn[o,i]` the probabilities that input
  feature `i` is / is not wired to `o`, and `n0[o]` / `n1[o]` the probabilities that `o` is an
  "and" / an "or" unit:

      and-value  T(b,o) = min over the 256 features i of  x[b,i]·pe[o,i] + 1·pn[o,i]
      or-value   S(b,o) = max over the 256 features i of  x[b,i]·pe[o,i] + (−1)·pn[o,i]
      result     G(b,o) = T(b,o)·n0[o] + S(b,o)·n1[o]

  The minimum starts from +∞ and the maximum from −∞ (the reductions' initial values), so both are
  plain folds over `Fin 256`. The three float literals are kept as the words the programs print.
-/
import Idealize.ShloMosaic.PureOps.Ideal
import Idealize.ShloMosaic.Lib.ValueIdx

noncomputable section

namespace Cert.EdgeNode

open Idealize.ShloMosaic Idealize.ShloMosaic.ValueIdx

/-- The batch array's shape, the two probability tables' shape. -/
abbrev SX : Shape := ⟨2, ![2048, 256]⟩
abbrev SP : Shape := ⟨2, ![256, 256]⟩

/-- The literal `1.0` as the programs print it. -/
abbrev w1 : EReal := Ideal.ofBits .f32 0x3F800000#32
/-- The literal `-1.0` (the reference's offset of the "or" branch). -/
abbrev wm1 : EReal := Ideal.ofBits .f32 0xBF800000#32
/-- The literal `-2.0` (the kernel's shift from the "and" branch's term to the "or" branch's). -/
abbrev wm2 : EReal := Ideal.ofBits .f32 0xC0000000#32

/-- The "and" branch's term at feature `i`. -/
def andTerm (x : SX.Idx → EReal) (pe pn : SP.Idx → EReal) (b : Fin 2048) (o i : Fin 256) : EReal :=
  x (ix2 b i) * pe (ix2 o i) + w1 * pn (ix2 o i)

/-- The "or" branch's term at feature `i`. -/
def orTerm (x : SX.Idx → EReal) (pe pn : SP.Idx → EReal) (b : Fin 2048) (o i : Fin 256) : EReal :=
  x (ix2 b i) * pe (ix2 o i) + wm1 * pn (ix2 o i)

/-- The and-value: the least "and" term over the features. -/
def andValue (x : SX.Idx → EReal) (pe pn : SP.Idx → EReal) (b : Fin 2048) (o : Fin 256) : EReal :=
  (Finset.univ : Finset (Fin 256)).fold min ⊤ (andTerm x pe pn b o)

/-- The or-value: the greatest "or" term over the features. -/
def orValue (x : SX.Idx → EReal) (pe pn : SP.Idx → EReal) (b : Fin 2048) (o : Fin 256) : EReal :=
  (Finset.univ : Finset (Fin 256)).fold max ⊥ (orTerm x pe pn b o)

/-- The result array: the two values mixed by the unit's operator probabilities. -/
def G (x : SX.Idx → EReal) (pe pn : SP.Idx → EReal) (n0 n1 : Fin 256 → EReal) : SX.Idx → EReal :=
  fun j => andValue x pe pn (j 0) (j 1) * n0 (j 1) + orValue x pe pn (j 0) (j 1) * n1 (j 1)

theorem G_apply (x : SX.Idx → EReal) (pe pn : SP.Idx → EReal) (n0 n1 : Fin 256 → EReal) (b : Fin 2048) (o : Fin 256) :
    G x pe pn n0 n1 (ix2 b o) = andValue x pe pn b o * n0 o + orValue x pe pn b o * n1 o := rfl

end Cert.EdgeNode

end
-- ==== Proof.ChunkedExtremum.lean ====
/-
  Two facts about extended reals that join the kernel's arithmetic to the reference's.

  1. A minimum (maximum) over 256 features is the minimum (maximum) of the extrema over the features
     0…127 and 128…255, taken in the order the kernel accumulates them: first against the initial value,
     then against the second half. Proved by the universal property of a finite min / max: a bound is below
     the fold iff it is below the initial value and below every term.

  2. Shifting `a + 1·p` by `(−2)·p` gives `a + (−1)·p` as soon as `p` is not −∞ — for a real `p` this is
     associativity of + and arithmetic on the reals, for `p = +∞` both sides are −∞. (At `p = −∞` it fails:
     the left side is −∞, the right side is +∞ for a finite `a`.)
-/
import Idealize.ShloMosaic.PureOps.Ideal

noncomputable section

namespace Cert.EdgeNode

open Idealize.ShloMosaic

/-- Feature `l` of the first half. -/
def lo (l : Fin 128) : Fin 256 := ⟨l.val, by omega⟩
/-- Feature `128 + l` of the second half. -/
def hi (l : Fin 128) : Fin 256 := ⟨128 + l.val, by omega⟩

theorem halves_cover (i : Fin 256) : (∃ l, lo l = i) ∨ (∃ l, hi l = i) := by
  by_cases h : i.val < 128
  · exact Or.inl ⟨⟨i.val, h⟩, Fin.ext rfl⟩
  · exact Or.inr ⟨⟨i.val - 128, by omega⟩, Fin.ext (by simp only [hi]; omega)⟩

/-- The minimum over all features, accumulated half by half from +∞. -/
theorem fold_min_halves (f : Fin 256 → EReal) :
    (Finset.univ : Finset (Fin 256)).fold min ⊤ f
      = min (min ⊤ ((Finset.univ : Finset (Fin 128)).fold min ⊤ fun l => f (lo l)))
          ((Finset.univ : Finset (Fin 128)).fold min ⊤ fun l => f (hi l)) := by
  refine eq_of_forall_le_iff fun c => ?_
  simp only [Finset.le_fold_min, le_min_iff, le_top, true_and, Finset.mem_univ, forall_true_left]
  constructor
  · intro h; exact ⟨fun l => h (lo l), fun l => h (hi l)⟩
  · rintro ⟨h1, h2⟩ i
    rcases halves_cover i with ⟨l, rfl⟩ | ⟨l, rfl⟩
    · exact h1 l
    · exact h2 l

/-- The maximum over all features, accumulated half by half from −∞. -/
theorem fold_max_halves (f : Fin 256 → EReal) :
    (Finset.univ : Finset (Fin 256)).fold max ⊥ f
      = max (max ⊥ ((Finset.univ : Finset (Fin 128)).fold max ⊥ fun l => f (lo l)))
          ((Finset.univ : Finset (Fin 128)).fold max ⊥ fun l => f (hi l)) := by
  refine eq_of_forall_ge_iff fun c => ?_
  simp only [Finset.fold_max_le, max_le_iff, bot_le, true_and, Finset.mem_univ, forall_true_left]
  constructor
  · intro h; exact ⟨fun l => h (lo l), fun l => h (hi l)⟩
  · rintro ⟨h1, h2⟩ i
    rcases halves_cover i with ⟨l, rfl⟩ | ⟨l, rfl⟩
    · exact h1 l
    · exact h2 l

/-- The three literals' values. -/
theorem ofBits_one : Ideal.ofBits .f32 0x3F800000#32 = ((1 : ℝ) : EReal) := by
  simp [Ideal.ofBits, Ideal.ieee]
  norm_cast; norm_num
theorem ofBits_negOne : Ideal.ofBits .f32 0xBF800000#32 = ((-1 : ℝ) : EReal) := by
  simp [Ideal.ofBits, Ideal.ieee]
  norm_cast; norm_num
theorem ofBits_negTwo : Ideal.ofBits .f32 0xC0000000#32 = ((-2 : ℝ) : EReal) := by
  simp [Ideal.ofBits, Ideal.ieee]
  norm_cast; norm_num
/-- The two infinities' words. -/
theorem ofBits_posInf : Ideal.ofBits .f32 0x7F800000#32 = (⊤ : EReal) := by
  simp [Ideal.ofBits, Ideal.ieee]
theorem ofBits_negInf : Ideal.ofBits .f32 0xFF800000#32 = (⊥ : EReal) := by
  simp [Ideal.ofBits, Ideal.ieee]

/-- The shift between the two branches' terms, over the reals' coercions. -/
theorem shift_coe (a p : EReal) (hp : p ≠ ⊥) :
    (a + ((1 : ℝ) : EReal) * p) + ((-2 : ℝ) : EReal) * p = a + ((-1 : ℝ) : EReal) * p := by
  induction p using EReal.rec with
  | bot => exact absurd rfl hp
  | top =>
    rw [EReal.coe_mul_top_of_pos (by norm_num), EReal.coe_mul_top_of_neg (by norm_num),
      EReal.coe_mul_top_of_neg (by norm_num), EReal.add_bot, EReal.add_bot]
  | coe r =>
    rw [← EReal.coe_mul, ← EReal.coe_mul, ← EReal.coe_mul, add_assoc, ← EReal.coe_add]
    congr 2
    ring

/-- The same with the literals as the programs print them. -/
theorem shift_words (a p : EReal) (hp : p ≠ ⊥) :
    (a + Ideal.ofBits .f32 0x3F800000#32 * p) + Ideal.ofBits .f32 0xC0000000#32 * p
      = a + Ideal.ofBits .f32 0xBF800000#32 * p := by
  rw [ofBits_one, ofBits_negTwo, ofBits_negOne]; exact shift_coe a p hp

end Cert.EdgeNode

end
-- ==== Proof.BodyValue.lean ====
/-
  The body's arithmetic read at one element, on the extended reals.

  With `r` a row of the point's batch block, `q` a unit of its output block and `l` a feature of a chunk:
    * the chunk's term      E(r,q,l) = x[r,l]·pe[q,l] + 1·pn[q,l]           (the 3-D product-plus-offset);
    * a trip replaces the minimum accumulator by  min(acc, min over l of E(r,q,l))  (from +∞),
      and the maximum accumulator by  max(acc, max over l of (E(r,q,l) + (−2)·pn[q,l]))  (from −∞);
    * the block is  minAcc(r,q)·n0[0,q] + maxAcc(r,q)·n1[0,q].
  The 3-D arrays are rows and columns re-laid: x's chunk is broadcast along the unit axis, pe's and pn's along the
  row axis; a lane reduction at (r,q) folds over the 128 entries (r,q,·).
-/
import proofs.«150702_j80041010528656_2_alg».proof.Proof.BodyRun
import proofs.«150702_j80041010528656_2_alg».proof.Proof.Spec
import proofs.«150702_j80041010528656_2_alg».proof.Proof.ChunkedExtremum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.EdgeNode.Kernel

open Cert.KernelIdeal Cert.KernelIdeal.Gen
open Idealize.ShloMosaic Idealize.ShloMosaic.ValueIdx

/-! ## The re-layings at an index -/

/-- A [128,128] chunk viewed [128,1,128]: entry (r,·,l) is the chunk's (r,l). -/
theorem castRows_apply (v : FVec Ideal S128x128 .f32) (r : Fin 128) (u : Fin 1) (l : Fin 128) :
    shapeCast S128x1x128 v shapeCasts_S128x128_S128x1x128 (ix3 r u l) = v (ix2 r l) :=
  shapeCast_apply v _ _ _ (by
    have hu : u.val = 0 := by omega
    rw [Shape.rowMajor_val_two, Shape.rowMajor_val_three]
    show r.val * 128 + l.val = (r.val * 1 + u.val) * 128 + l.val
    rw [hu]; omega)

/-- A [128,1,128] array spread over the middle axis: entry (r,q,l) is the operand's (r,0,l). -/
theorem spreadMiddle_apply (x : FVec Ideal S128x1x128 .f32) (r q l : Fin 128) :
    broadcastTo S128x128x128 x broadcasts_S128x1x128_S128x128x128 (ix3 r q l) = x (ix3 r (0 : Fin 1) l) := by
  refine broadcastTo_apply x _ (ix3 r q l) (ix3 r (0 : Fin 1) l) fun ax => ?_
  match ax with
  | ⟨0, _⟩ => rfl
  | ⟨1, _⟩ => rfl
  | ⟨2, _⟩ => rfl

/-- A [1,128,128] array spread over the leading axis: entry (r,q,l) is the operand's (0,q,l). -/
theorem spreadLeading_apply (x : FVec Ideal S1x128x128 .f32) (r q l : Fin 128) :
    broadcastTo S128x128x128 x broadcasts_S1x128x128_S128x128x128 (ix3 r q l) = x (ix3 (0 : Fin 1) q l) := by
  refine broadcastTo_apply x _ (ix3 r q l) (ix3 (0 : Fin 1) q l) fun ax => ?_
  match ax with
  | ⟨0, _⟩ => rfl
  | ⟨1, _⟩ => rfl
  | ⟨2, _⟩ => rfl

/-- The source index a lane reduction at (r,q) visits for lane `l`. -/
theorem lane_lift (r q l : Fin 128) :
    reduces_S128x128x128_S128x128.lift (ix2 r q) l = ix3 r q l :=
  funext fun a => Fin.ext (by match a with | ⟨0, _⟩ => rfl | ⟨1, _⟩ => rfl | ⟨2, _⟩ => rfl)

/-- A lane minimum at (r,q): the least of the 128 entries (r,q,·), from +∞. -/
theorem laneMin_apply (src : FVec Ideal S128x128x128 .f32)
    (hacc : (0x7F800000#32 : BitVec 32) = 0x7F800000#32) (r q : Fin 128) :
    multiReduction .minimumf [2] S128x128 src 0x7F800000#32 reduces_S128x128x128_S128x128 (.inl rfl) hacc (ix2 r q)
      = (Finset.univ : Finset (Fin 128)).fold min ⊤ (fun l => src (ix3 r q l)) := by
  refine (multiReduction_minimumf_eq_fold src _ reduces_S128x128x128_S128x128 (.inl rfl) hacc (ix2 r q)).trans ?_
  refine (reduces_S128x128x128_S128x128.fold_filter_drop_single _ _ src (ix2 r q)).trans ?_
  simp only [Ideal.ofBits_def, ofBits_posInf]
  exact congrArg (fun f => Finset.fold min ⊤ f Finset.univ) (funext fun l => congrArg src (lane_lift r q l))

/-- A lane maximum at (r,q): the greatest of the 128 entries (r,q,·), from −∞. -/
theorem laneMax_apply (src : FVec Ideal S128x128x128 .f32)
    (hacc : (0xFF800000#32 : BitVec 32) = 0xFF800000#32) (r q : Fin 128) :
    multiReduction .maximumf [2] S128x128 src 0xFF800000#32 reduces_S128x128x128_S128x128 (.inl rfl) hacc (ix2 r q)
      = (Finset.univ : Finset (Fin 128)).fold max ⊥ (fun l => src (ix3 r q l)) := by
  refine (multiReduction_maximumf_eq_fold src _ reduces_S128x128x128_S128x128 (.inl rfl) hacc (ix2 r q)).trans ?_
  refine (reduces_S128x128x128_S128x128.fold_filter_drop_single _ _ src (ix2 r q)).trans ?_
  simp only [Ideal.ofBits_def, ofBits_negInf]
  exact congrArg (fun f => Finset.fold max ⊥ f Finset.univ) (funext fun l => congrArg src (lane_lift r q l))

/-! ## The payloads at an index -/

/-- The chunk's term at (r,q,l). -/
theorem term_apply (v26 v28 v31 : Vec Ideal S128x128 .f32) (r q l : Fin 128) :
    k0_pay5 v26 v28 v31 (ix3 r q l) = v26 (ix2 r l) * v28 (ix2 q l) + w1 * v31 (ix2 q l) := by
  unfold k0_pay5 k0_pay4
  dsimp only
  simp only [addf_apply, mulf_apply, spreadMiddle_apply, spreadLeading_apply, castRows_apply, shapeCast_self,
    shapeCast_ab_1ab_apply, broadcast_apply]
  rfl

/-- One trip's new minimum accumulator at (r,q): the old one against the least term of the chunk. -/
theorem minStep_apply (v26 v28 v31 v43 : Vec Ideal S128x128 .f32) (r q : Fin 128) :
    k0_pay6 v26 v28 v31 v43 (ix2 r q)
      = min (v43 (ix2 r q)) ((Finset.univ : Finset (Fin 128)).fold min ⊤
          fun l => v26 (ix2 r l) * v28 (ix2 q l) + w1 * v31 (ix2 q l)) := by
  unfold k0_pay6
  rw [shapeCast_self, minimumf_apply]
  refine congrArg (min (v43 (ix2 r q))) ((laneMin_apply _ _ r q).trans ?_)
  simp only [term_apply]

/-- One trip's new maximum accumulator at (r,q): the old one against the greatest shifted term of the chunk. -/
theorem maxStep_apply (v26 v28 v31 v54 : Vec Ideal S128x128 .f32) (r q : Fin 128) :
    k0_pay7 v26 v28 v31 v54 (ix2 r q)
      = max (v54 (ix2 r q)) ((Finset.univ : Finset (Fin 128)).fold max ⊥
          fun l => (v26 (ix2 r l) * v28 (ix2 q l) + w1 * v31 (ix2 q l)) + wm2 * v31 (ix2 q l)) := by
  unfold k0_pay7 k0_pay4
  rw [shapeCast_self, maximumf_apply]
  refine congrArg (max (v54 (ix2 r q))) ((laneMax_apply _ _ r q).trans ?_)
  simp only [addf_apply, mulf_apply, term_apply, spreadLeading_apply, shapeCast_self, shapeCast_ab_1ab_apply,
    broadcast_apply]
  rfl

/-- The first trip's columns of a block: the chunk's entry (r,l) sits at feature `l` of the first half. -/
theorem chunk0_idx (r l : Fin 128) : (chunk trip0).idx (ix2 r l) = ix2 r (lo l) := by
  refine funext fun a => Fin.ext ?_
  match a with
  | ⟨0, _⟩ => show k0_off1 trip0 0 + 1 * r.val = r.val; rw [k0_off1_eq]; show 0 + 1 * r.val = r.val; omega
  | ⟨1, _⟩ => show k0_off1 trip0 1 + 1 * l.val = l.val; rw [k0_off1_eq]; show 128 * 0 + 1 * l.val = l.val; omega

/-- The second trip's columns: the chunk's entry (r,l) sits at feature `128 + l`. -/
theorem chunk1_idx (r l : Fin 128) : (chunk trip1).idx (ix2 r l) = ix2 r (hi l) := by
  refine funext fun a => Fin.ext ?_
  match a with
  | ⟨0, _⟩ => show k0_off1 trip1 0 + 1 * r.val = r.val; rw [k0_off1_eq]; show 0 + 1 * r.val = r.val; omega
  | ⟨1, _⟩ => show k0_off1 trip1 1 + 1 * l.val = 128 + l.val; rw [k0_off1_eq]; show 128 * 1 + 1 * l.val = 128 + l.val; omega

/-- So a block read through the first (second) trip's columns is the block at the first (second) half's feature. -/
theorem chunk0_apply (x : Vec Ideal S128x256 .f32) (r l : Fin 128) :
    View.ld x (chunk trip0) (ix2 r l) = x (ix2 r (lo l)) := congrArg x (chunk0_idx r l)
theorem chunk1_apply (x : Vec Ideal S128x256 .f32) (r l : Fin 128) :
    View.ld x (chunk trip1) (ix2 r l) = x (ix2 r (hi l)) := congrArg x (chunk1_idx r l)

/-- The minimum accumulator's fill is +∞ everywhere, the maximum accumulator's −∞. -/
theorem fillMin_apply (j : S128x128.Idx) : k0_pay1 (F := Ideal) j = ⊤ := by
  unfold k0_pay1; rw [shapeCast_self, broadcast_apply]; exact ofBits_posInf
theorem fillMax_apply (j : S128x128.Idx) : k0_pay2 (F := Ideal) j = ⊥ := by
  unfold k0_pay2; rw [shapeCast_self, broadcast_apply]; exact ofBits_negInf

end Cert.EdgeNode.Kernel

end
-- ==== Proof.BlockValue.lean ====
/-
  The output block at one element as the specification's two folds over all 256 features: each accumulator after
  the two trips is the fill against the first half's extremum and then the second half's; the halves join into one
  fold over 256 features, and the shifted "and" term is the "or" term wherever the no-edge entry is not −∞.
-/
import proofs.«150702_j80041010528656_2_alg».proof.Proof.BodyValue

set_option maxRecDepth 16384

noncomputable section

namespace Cert.EdgeNode.Kernel

open Cert.KernelIdeal Cert.KernelIdeal.Gen
open Idealize.ShloMosaic Idealize.ShloMosaic.ValueIdx

/-- The last store's value at (r,q), for ANY two accumulators: each times its operator probability of unit `q`. -/
theorem mix_apply (x3 x4 : Vec Ideal S1x128 .f32) (A B : Vec Ideal S128x128 .f32) (r q : Fin 128) :
    k0_pay3 x3 x4 A B (ix2 r q) = A (ix2 r q) * x3 (ix2 (0 : Fin 1) q) + B (ix2 r q) * x4 (ix2 (0 : Fin 1) q) := by
  unfold k0_pay3
  simp only [addf_apply, mulf_apply, shapeCast_self, broadcastTo_1b_ab_apply]

/-- The minimum accumulator after both trips at (r,q), from ANY fill `g`: the fill against the first half's least term,
    then against the second half's. -/
theorem accMin_apply (x0 x1 x2 : Vec Ideal S128x256 .f32) (g : Vec Ideal S128x128 .f32) (r q : Fin 128) :
    accMin x0 x1 x2 g (ix2 r q)
      = min (min (g (ix2 r q)) ((Finset.univ : Finset (Fin 128)).fold min ⊤
            fun l => x0 (ix2 r (lo l)) * x1 (ix2 q (lo l)) + w1 * x2 (ix2 q (lo l))))
          ((Finset.univ : Finset (Fin 128)).fold min ⊤
            fun l => x0 (ix2 r (hi l)) * x1 (ix2 q (hi l)) + w1 * x2 (ix2 q (hi l))) := by
  unfold accMin
  refine (minStep_apply _ _ _ _ r q).trans ?_
  rw [minStep_apply]
  simp only [View.ld, chunk0_idx, chunk1_idx]

/-- The maximum accumulator after both trips at (r,q), from ANY fill `g`. -/
theorem accMax_apply (x0 x1 x2 : Vec Ideal S128x256 .f32) (g : Vec Ideal S128x128 .f32) (r q : Fin 128) :
    accMax x0 x1 x2 g (ix2 r q)
      = max (max (g (ix2 r q)) ((Finset.univ : Finset (Fin 128)).fold max ⊥
            fun l => (x0 (ix2 r (lo l)) * x1 (ix2 q (lo l)) + w1 * x2 (ix2 q (lo l))) + wm2 * x2 (ix2 q (lo l))))
          ((Finset.univ : Finset (Fin 128)).fold max ⊥
            fun l => (x0 (ix2 r (hi l)) * x1 (ix2 q (hi l)) + w1 * x2 (ix2 q (hi l))) + wm2 * x2 (ix2 q (hi l))) := by
  unfold accMax
  refine (maxStep_apply _ _ _ _ r q).trans ?_
  rw [maxStep_apply]
  simp only [View.ld, chunk0_idx, chunk1_idx]

/-- THE BLOCK AT (r,q): the minimum over all 256 features of the "and" term times the block's `n0` entry, plus the
    maximum over all 256 features of the "or" term times its `n1` entry — provided no entry of the `pn` block is −∞
    (the shift from the "and" term to the "or" term needs it). -/
theorem block_apply (x0 x1 x2 : Vec Ideal S128x256 .f32) (x3 x4 : Vec Ideal S1x128 .f32) (hx2 : ∀ j, x2 j ≠ ⊥)
    (r q : Fin 128) :
    k0_pay3 x3 x4 (accMin x0 x1 x2 (k0_pay1 (F := Ideal))) (accMax x0 x1 x2 (k0_pay2 (F := Ideal))) (ix2 r q)
      = (Finset.univ : Finset (Fin 256)).fold min ⊤ (fun i => x0 (ix2 r i) * x1 (ix2 q i) + w1 * x2 (ix2 q i))
            * x3 (ix2 (0 : Fin 1) q)
        + (Finset.univ : Finset (Fin 256)).fold max ⊥ (fun i => x0 (ix2 r i) * x1 (ix2 q i) + wm1 * x2 (ix2 q i))
            * x4 (ix2 (0 : Fin 1) q) := by
  refine (mix_apply x3 x4 _ _ r q).trans ?_
  rw [accMin_apply x0 x1 x2 _ r q, accMax_apply x0 x1 x2 _ r q, fillMin_apply, fillMax_apply]
  rw [fold_min_halves (fun i => x0 (ix2 r i) * x1 (ix2 q i) + w1 * x2 (ix2 q i)),
    fold_max_halves (fun i => x0 (ix2 r i) * x1 (ix2 q i) + wm1 * x2 (ix2 q i))]
  simp only [shift_words _ _ (hx2 _)]

end Cert.EdgeNode.Kernel

end
-- ==== Proof.FinalArray.lean ====
/-
  From the blocks the grid points write back to the whole result array.

  The grid has 2 × 16 points (go, gb). Point (go, gb) stages rows 128·gb … 128·gb+127 of the batch array (all 256
  features), rows 128·go … 128·go+127 of the two edge-probability tables, columns 128·go … 128·go+127 of the two
  operator-probability rows, and writes back the [128,128] block at block index (gb, go) of the result. So entry (r,q)
  of what the point writes back is the specification's value at batch row 128·gb + r and unit 128·go + q of the
  arrays the region finds, and the 32 blocks tile the [2048,256] result: the point covering (b,o) is (o / 128, b / 128).
-/
import proofs.«150702_j80041010528656_2_alg».proof.Proof.Gen.KernelIdeal.Value
import proofs.«150702_j80041010528656_2_alg».proof.Proof.BlockValue
import Idealize.ShloMosaic.Lib.Pipeline.Value

set_option maxRecDepth 16384

noncomputable section

namespace Cert.EdgeNode.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's function of the five arrays the region finds: the batch array, the two edge-probability
    tables, and the two operator-probability rows (each a [1,256] array, read along its one row). -/
def regionValue (c : Dev nD) : S2048x256.Idx → EReal :=
  G (V m c main_arg0) (V m c main_call0_v23) (V m c main_call0_v25)
    (fun o => (V m c main_call0_v28 : S1x256.Idx → EReal) (ix2 (0 : Fin 1) o))
    (fun o => (V m c main_call0_v31 : S1x256.Idx → EReal) (ix2 (0 : Fin 1) o))

/-! ## One point, over variables -/

/-- For ANY five blocks that are the rows / columns of five arrays at row-block `gb` and unit-block `go`, the body's
    block at (r,q) is the specification's value at batch row 128·gb + r and unit 128·go + q — provided the
    no-edge table has no −∞ entry. -/
theorem point_value (X : SX.Idx → EReal) (PE PN : SP.Idx → EReal) (N0 N1 : S1x256.Idx → EReal)
    (x0 x1 x2 : Vec Ideal S128x256 .f32) (x3 x4 : Vec Ideal S1x128 .f32)
    (gb go : Nat) (hgb : gb ≤ 15) (hgo : go ≤ 1)
    (h0 : ∀ (r : Fin 128) (i : Fin 256), x0 (ix2 r i) = X (ix2 (⟨gb * 128 + r.val, by omega⟩ : Fin 2048) i))
    (h1 : ∀ (q : Fin 128) (i : Fin 256), x1 (ix2 q i) = PE (ix2 (⟨go * 128 + q.val, by omega⟩ : Fin 256) i))
    (h2 : ∀ (q : Fin 128) (i : Fin 256), x2 (ix2 q i) = PN (ix2 (⟨go * 128 + q.val, by omega⟩ : Fin 256) i))
    (h3 : ∀ q : Fin 128, x3 (ix2 (0 : Fin 1) q) = N0 (ix2 (0 : Fin 1) (⟨go * 128 + q.val, by omega⟩ : Fin 256)))
    (h4 : ∀ q : Fin 128, x4 (ix2 (0 : Fin 1) q) = N1 (ix2 (0 : Fin 1) (⟨go * 128 + q.val, by omega⟩ : Fin 256)))
    (hPN : ∀ j, PN j ≠ ⊥) (r q : Fin 128) :
    k0_pay3 x3 x4 (accMin x0 x1 x2 (k0_pay1 (F := Ideal))) (accMax x0 x1 x2 (k0_pay2 (F := Ideal))) (ix2 r q)
      = G X PE PN (fun o => N0 (ix2 (0 : Fin 1) o)) (fun o => N1 (ix2 (0 : Fin 1) o))
          (ix2 (⟨gb * 128 + r.val, by omega⟩ : Fin 2048) (⟨go * 128 + q.val, by omega⟩ : Fin 256)) := by
  have hx2 : ∀ j, x2 j ≠ ⊥ := fun j => by
    obtain ⟨q', i, rfl⟩ : ∃ (q' : Fin 128) (i : Fin 256), j = ix2 q' i := ⟨j 0, j 1, eq_ix2 j⟩
    rw [h2]; exact hPN _
  rw [block_apply x0 x1 x2 x3 x4 hx2 r q, G_apply]
  unfold andValue orValue andTerm orTerm
  simp only [h0, h1, h2, h3, h4]

/-! ## The printed index maps over the grid -/

/-- Decided over the 32 points: the batch window moves with the result's row block, the two table windows and the two
    operator-row windows with its unit block, every other block coordinate is 0, and the result's block indices stay
    below 16 and 2. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 1 :=
  (by decide +kernel : ∀ t : Fin grid0.N, _)

/-- Every block index of the result is some point's. -/
theorem idx_onto : ∀ (q0 : Fin 16) (q1 : Fin 2), ∃ t : Fin cfg0.N, win0_5.index t = ![q0.val, q1.val] :=
  (by decide +kernel : ∀ (q0 : Fin 16) (q1 : Fin 2), ∃ t : Fin grid0.N, win0_5.index t = ![q0.val, q1.val])

/-! ## The input blocks at a point, as entries of the arrays the region finds -/

/-- The batch window's block at point `t`, entry (r,i): batch row 128·(row block) + r, feature i. -/
theorem batchBlock_apply (c : Dev nD) (t : Fin cfg0.N) (r : Fin 128) (i : Fin 256) (h : win0_5.index t (0 : Fin 2) * 128 + r.val < 2048) :
    (iblk m c 0 t : Vec Ideal S128x256 .f32) (ix2 r i)
      = (V m c main_arg0 : SX.Idx → EReal) (ix2 (⟨win0_5.index t (0 : Fin 2) * 128 + r.val, h⟩ : Fin 2048) i) := by
  obtain ⟨e00, e01, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 128 + 1 * r.val = win0_5.index t (0 : Fin 2) * 128 + r.val; rw [e00]; omega
  | ⟨1, _⟩ => show win0_0.index t (1 : Fin 2) * 256 + 1 * i.val = i.val; rw [e01]; omega

/-- The edge table's block at point `t`, entry (q,i): unit 128·(unit block) + q, feature i. -/
theorem edgeBlock_apply (c : Dev nD) (t : Fin cfg0.N) (q : Fin 128) (i : Fin 256) (h : win0_5.index t (1 : Fin 2) * 128 + q.val < 256) :
    (iblk m c 1 t : Vec Ideal S128x256 .f32) (ix2 q i)
      = (V m c main_call0_v23 : SP.Idx → EReal) (ix2 (⟨win0_5.index t (1 : Fin 2) * 128 + q.val, h⟩ : Fin 256) i) := by
  obtain ⟨-, -, e10, e11, -⟩ := idx_facts t
  unfold iblk
  rw [View.read_apply]
  show V m c main_call0_v23 _ = V m c main_call0_v23 _
  refine congrArg (V m c main_call0_v23) (funext fun a => Fin.ext ?_)
  match a with
  | ⟨0, _⟩ => show win0_1.index t (0 : Fin 2) * 128 + 1 * q.val = win0_5.index t (1 : Fin 2) * 128 + q.val; rw [e10]; omega
  | ⟨1, _⟩ => show win0_1.index t (1 : Fin 2) * 256 + 1 * i.val = i.val; rw [e11]; omega

/-- The no-edge table's block at point `t`, likewise. -/
theorem noedgeBlock_apply (c : Dev nD) (t : Fin cfg0.N) (q : Fin 128) (i : Fin 256) (h : win0_5.index t (1 : Fin 2) * 128 + q.val < 256) :
    (iblk m c 2 t : Vec Ideal S128x256 .f32) (ix2 q i)
      = (V m c main_call0_v25 : SP.Idx → EReal) (ix2 (⟨win0_5.index t (1 : Fin 2) * 128 + q.val, h⟩ : Fin 256) i) := by
  obtain ⟨-, -, -, -, e20, e21, -⟩ := idx_facts t
  unfold iblk
  rw [View.read_apply]
  show V m c main_call0_v25 _ = V m c main_call0_v25 _
  refine congrArg (V m c main_call0_v25) (funext fun a => Fin.ext ?_)
  match a with
  | ⟨0, _⟩ => show win0_2.index t (0 : Fin 2) * 128 + 1 * q.val = win0_5.index t (1 : Fin 2) * 128 + q.val; rw [e20]; omega
  | ⟨1, _⟩ => show win0_2.index t (1 : Fin 2) * 256 + 1 * i.val = i.val; rw [e21]; omega

/-- The "and" operator row's block at point `t`, entry (0,q): unit 128·(unit block) + q. -/
theorem andRowBlock_apply (c : Dev nD) (t : Fin cfg0.N) (q : Fin 128) (h : win0_5.index t (1 : Fin 2) * 128 + q.val < 256) :
    (iblk m c 3 t : Vec Ideal S1x128 .f32) (ix2 (0 : Fin 1) q)
      = (V m c main_call0_v28 : S1x256.Idx → EReal) (ix2 (0 : Fin 1) (⟨win0_5.index t (1 : Fin 2) * 128 + q.val, h⟩ : Fin 256)) := by
  obtain ⟨-, -, -, -, -, -, e30, e31, -⟩ := idx_facts t
  unfold iblk
  rw [View.read_apply]
  show V m c main_call0_v28 _ = V m c main_call0_v28 _
  refine congrArg (V m c main_call0_v28) (funext fun a => Fin.ext ?_)
  match a with
  | ⟨0, _⟩ => show win0_3.index t (0 : Fin 2) * 1 + 1 * 0 = 0; rw [e30]
  | ⟨1, _⟩ => show win0_3.index t (1 : Fin 2) * 128 + 1 * q.val = win0_5.index t (1 : Fin 2) * 128 + q.val; rw [e31]; omega

/-- The "or" operator row's block at point `t`, likewise. -/
theorem orRowBlock_apply (c : Dev nD) (t : Fin cfg0.N) (q : Fin 128) (h : win0_5.index t (1 : Fin 2) * 128 + q.val < 256) :
    (iblk m c 4 t : Vec Ideal S1x128 .f32) (ix2 (0 : Fin 1) q)
      = (V m c main_call0_v31 : S1x256.Idx → EReal) (ix2 (0 : Fin 1) (⟨win0_5.index t (1 : Fin 2) * 128 + q.val, h⟩ : Fin 256)) := by
  obtain ⟨-, -, -, -, -, -, -, -, e40, e41, -⟩ := idx_facts t
  unfold iblk
  rw [View.read_apply]
  show V m c main_call0_v31 _ = V m c main_call0_v31 _
  refine congrArg (V m c main_call0_v31) (funext fun a => Fin.ext ?_)
  match a with
  | ⟨0, _⟩ => show win0_4.index t (0 : Fin 2) * 1 + 1 * 0 = 0; rw [e40]
  | ⟨1, _⟩ => show win0_4.index t (1 : Fin 2) * 128 + 1 * q.val = win0_5.index t (1 : Fin 2) * 128 + q.val; rw [e41]; omega

/-! ## What a point writes back, the cover, the array -/

/-- WHAT POINT `t` WRITES BACK is block `t` of the specification's function of the arrays the region finds —
    provided the no-edge table the region finds has no −∞ entry. -/
theorem flushed_eq (c : Dev nD) (hpn : ∀ j, (V m c main_call0_v25 : SP.Idx → EReal) j ≠ (⊥ : EReal)) (t : Fin cfg0.N) :
    (dats m 0 c).flushed 5 t = ((cfg0.win 5).blk t).view.read (Elt Ideal) (regionValue m c) := by
  obtain ⟨-, -, -, -, -, -, -, -, -, -, hgb, hgo⟩ := idx_facts t
  rw [Cert.KernelIdeal.Value.flushed5_A m c t, block_eq]
  funext y
  obtain ⟨r, q, rfl⟩ : ∃ (r q : Fin 128), y = ix2 r q := ⟨y 0, y 1, eq_ix2 (n0 := 128) (n1 := 128) y⟩
  have hr : r.val < 128 := r.isLt
  have hq : q.val < 128 := q.isLt
  refine (point_value (V m c main_arg0) (V m c main_call0_v23) (V m c main_call0_v25) (V m c main_call0_v28) (V m c main_call0_v31)
    (iblk m c 0 t) (iblk m c 1 t) (iblk m c 2 t) (iblk m c 3 t) (iblk m c 4 t)
    (win0_5.index t (0 : Fin 2)) (win0_5.index t (1 : Fin 2)) hgb hgo
    (fun r i => batchBlock_apply m c t r i _) (fun q i => edgeBlock_apply m c t q i _) (fun q i => noedgeBlock_apply m c t q i _)
    (fun q => andRowBlock_apply m c t q _) (fun q => orRowBlock_apply m c t q _) hpn r q).trans ?_
  rw [View.read_apply]
  show regionValue m c _ = regionValue m c (((cfg0.win 5).blk t).view.emb (ix2 r q))
  refine congrArg (regionValue m c) (funext fun a => Fin.ext ?_)
  match a with
  | ⟨0, _⟩ => show win0_5.index t (0 : Fin 2) * 128 + r.val = win0_5.index t (0 : Fin 2) * 128 + 1 * r.val; omega
  | ⟨1, _⟩ => show win0_5.index t (1 : Fin 2) * 128 + q.val = win0_5.index t (1 : Fin 2) * 128 + 1 * q.val; omega

/-- An index of the result is in point `t`'s block iff each coordinate is in the block's range on its axis. -/
theorem mem_block (t : Fin cfg0.N) (i : S2048x256.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v0).slice (win0_5.rect t)).set ↔ _
  rw [View.set_slice_whole, Rect.mem_set_unit]
  exact Iff.rfl

/-- THE BLOCKS TILE THE RESULT: entry (b,o) is in the block of the point with row block b / 128 and unit block o / 128. -/
theorem blocks_cover (i : S2048x256.Idx) :
    ∃ t : Fin cfg0.N, (cfg0.win 5).flush t = true ∧ i ∈ ((cfg0.win 5).blk t).view.set := by
  have hi0 : (i 0).val < 2048 := (i 0).isLt
  have hi1 : (i 1).val < 256 := (i 1).isLt
  obtain ⟨t, ht⟩ := idx_onto ⟨(i 0).val / 128, by omega⟩ ⟨(i 1).val / 128, by omega⟩
  have q0 : win0_5.index t (0 : Fin 2) = (i 0).val / 128 := congrFun ht 0
  have q1 : win0_5.index t (1 : Fin 2) = (i 1).val / 128 := congrFun ht 1
  refine ⟨t, flush0_5 t, ?_⟩
  rw [mem_block]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

/-- THE RESULT ARRAY after the run is the specification's function of the arrays the region finds. -/
theorem final (c : Dev nD) (hpn : ∀ j, (V m c main_call0_v25 : SP.Idx → EReal) j ≠ (⊥ : EReal)) :
    (dats m 0 c).arrAt 5 cfg0.N = regionValue m c :=
  (dats m 0 c).arrAt_eq_of_cover 5 (regionValue m c) (fun t _ => flushed_eq m c hpn t) blocks_cover

/-- The kernel's run, read: the result at the specification's function, the arguments unchanged. -/
theorem run (hpn : ∀ (c : Dev nD) j, (V m c main_call0_v25 : SP.Idx → EReal) j ≠ (⊥ : EReal)) :
    θ_run defs (onTc (τ := τ) (main (F := Ideal))) ⟨m, fun _ => 0, ρ⟩ fun r => ∀ c : Dev nD,
      r.2.mem ((c : Thread nD τ).loc main_v0) = regionValue m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hpn c)), (h c).2⟩)
    (Cert.KernelIdeal.Value.run_blocks m ρ)

end Cert.EdgeNode.Kernel

end
-- ==== Proof.ReferenceValue.lean ====
/-
  The reference program's result array is the function `G` of the specification.

  At a batch row `b` and an output unit `o` the reference multiplies the minimum over the features `i` of
  `x[b,i]·pe[o,i] + 1·pn[o,i]` by `n0[o]`, the maximum over `i` of `x[b,i]·pe[o,i] + (−1)·pn[o,i]` by `n1[o]`,
  and adds the two. The minimum is a fold of `min` from the word of +∞ over the 256 feature coordinates and the maximum a
  fold of `max` from the word of −∞; the broadcasts in front of them only re-index, so each folded term is the
  specification's "and" / "or" term. The four probability tables (the two softmax outputs, each split into its two
  components) stay opaque: they are the same terms on both sides.
-/
import proofs.«150702_j80041010528656_2_alg».proof.Proof.Gen.ReferenceIdeal.Read
import proofs.«150702_j80041010528656_2_alg».proof.Proof.Spec
import Idealize.ShloMosaic.Lib.ValueIdx
import Idealize.ShloMosaic.PureOps.Ideal.Laws

noncomputable section

namespace Cert.EdgeNode.Ref

open Idealize.ShloMosaic Idealize.ShloMosaic.ValueIdx
open Cert.ReferenceIdeal Cert.ReferenceIdeal.Gen Cert.ReferenceIdeal.Read

/-- The shape relation of the two reductions over the feature axis. -/
theorem featureAxis : S2048x256x256.Reduces [2] S2048x256 := by decide

/-- A reduced index with the feature coordinate put back is the triple of coordinates. -/
theorem lift_eq (b : Fin 2048) (o k : Fin 256) : featureAxis.lift (ix2 b o) k = ix3 b o k := by
  funext a
  match a with
  | ⟨0, _⟩ => exact Fin.ext rfl
  | ⟨1, _⟩ => exact Fin.ext rfl
  | ⟨2, _⟩ => exact Fin.ext rfl

/-- The word of +∞ is the top element … -/
theorem top_word : Ideal.ofBits .f32 0x7F800000#32 = (⊤ : EReal) := by simp [Ideal.ofBits, Ideal.ieee]
/-- … and the word of −∞ the bottom one. -/
theorem bot_word : Ideal.ofBits .f32 0xFF800000#32 = (⊥ : EReal) := by simp [Ideal.ofBits, Ideal.ieee]

/-- The array the minimum is taken over, at (b, o, k): the "and" term at feature `k`. -/
theorem andTerm_eq (x0 : (⟨S2048x256, .f32⟩ : BufTy).Contents (Elt Ideal)) (x1 : (⟨S256x256x2, .f32⟩ : BufTy).Contents (Elt Ideal))
    (b : Fin 2048) (o k : Fin 256) :
    val_main_v35 (F := Ideal) x0 x1 (ix3 b o k)
      = andTerm x0 (val_main_v23 (F := Ideal) x1) (val_main_v25 (F := Ideal) x1) b o k := by
  have e1 : idx_main_v26 (idx_main_v28 (ix3 b o k)) = ix2 b k := by
    funext a; match a with | ⟨0, _⟩ => rfl | ⟨1, _⟩ => rfl
  have e2 : idx_main_v27 (idx_main_v29 (ix3 b o k)) = ix2 o k := by
    funext a; match a with | ⟨0, _⟩ => rfl | ⟨1, _⟩ => rfl
  have e3 : idx_main_v33 (idx_main_v34 (ix3 b o k)) = ix2 o k := by
    funext a; match a with | ⟨0, _⟩ => rfl | ⟨1, _⟩ => rfl
  rw [val_main_v35_apply, val_main_v30_apply, val_main_v28_apply, val_main_v26_apply, val_main_v29_apply,
    val_main_v27_apply, val_main_v34_apply, val_main_v33_apply, val_main_v32_apply, val_main_v31_apply,
    val_main_cst_5_apply, e1, e2, e3]
  rfl

/-- The array the maximum is taken over, at (b, o, k): the "or" term at feature `k`. -/
theorem orTerm_eq (x0 : (⟨S2048x256, .f32⟩ : BufTy).Contents (Elt Ideal)) (x1 : (⟨S256x256x2, .f32⟩ : BufTy).Contents (Elt Ideal))
    (b : Fin 2048) (o k : Fin 256) :
    val_main_v41 (F := Ideal) x0 x1 (ix3 b o k)
      = orTerm x0 (val_main_v23 (F := Ideal) x1) (val_main_v25 (F := Ideal) x1) b o k := by
  have e1 : idx_main_v26 (idx_main_v28 (ix3 b o k)) = ix2 b k := by
    funext a; match a with | ⟨0, _⟩ => rfl | ⟨1, _⟩ => rfl
  have e2 : idx_main_v27 (idx_main_v29 (ix3 b o k)) = ix2 o k := by
    funext a; match a with | ⟨0, _⟩ => rfl | ⟨1, _⟩ => rfl
  have e3 : idx_main_v39 (idx_main_v40 (ix3 b o k)) = ix2 o k := by
    funext a; match a with | ⟨0, _⟩ => rfl | ⟨1, _⟩ => rfl
  rw [val_main_v41_apply, val_main_v30_apply, val_main_v28_apply, val_main_v26_apply, val_main_v29_apply,
    val_main_v27_apply, val_main_v40_apply, val_main_v39_apply, val_main_v38_apply, val_main_v37_apply,
    val_main_cst_7_apply, e1, e2, e3]
  rfl

/-- The minimum over the feature axis, from +∞: the and-value. -/
theorem andValue_eq (x0 : (⟨S2048x256, .f32⟩ : BufTy).Contents (Elt Ideal)) (x1 : (⟨S256x256x2, .f32⟩ : BufTy).Contents (Elt Ideal))
    (b : Fin 2048) (o : Fin 256) :
    val_main_v36 (F := Ideal) x0 x1 (ix2 b o)
      = andValue x0 (val_main_v23 (F := Ideal) x1) (val_main_v25 (F := Ideal) x1) b o := by
  unfold val_main_v36
  rw [Host.reduce_eq_fold_single _ _ _ _ featureAxis _ (ix2 b o), val_main_cst_6_apply, Ideal.ofBits_def, top_word]
  unfold andValue
  have hf : (val_main_v35 (F := Ideal) x0 x1 ∘ featureAxis.lift (ix2 b o))
      = andTerm x0 (val_main_v23 (F := Ideal) x1) (val_main_v25 (F := Ideal) x1) b o := by
    funext k
    exact (congrArg (val_main_v35 (F := Ideal) x0 x1) (lift_eq b o k)).trans (andTerm_eq x0 x1 b o k)
  rw [hf]
  rfl

/-- The maximum over the feature axis, from −∞: the or-value. -/
theorem orValue_eq (x0 : (⟨S2048x256, .f32⟩ : BufTy).Contents (Elt Ideal)) (x1 : (⟨S256x256x2, .f32⟩ : BufTy).Contents (Elt Ideal))
    (b : Fin 2048) (o : Fin 256) :
    val_main_v42 (F := Ideal) x0 x1 (ix2 b o)
      = orValue x0 (val_main_v23 (F := Ideal) x1) (val_main_v25 (F := Ideal) x1) b o := by
  unfold val_main_v42
  rw [Host.reduce_eq_fold_single _ _ _ _ featureAxis _ (ix2 b o), val_main_cst_8_apply, Ideal.ofBits_def, bot_word]
  unfold orValue
  have hf : (val_main_v41 (F := Ideal) x0 x1 ∘ featureAxis.lift (ix2 b o))
      = orTerm x0 (val_main_v23 (F := Ideal) x1) (val_main_v25 (F := Ideal) x1) b o := by
    funext k
    exact (congrArg (val_main_v41 (F := Ideal) x0 x1) (lift_eq b o k)).trans (orTerm_eq x0 x1 b o k)
  rw [hf]
  rfl

/-- The reference's result is `G` of the batch array and the four probability tables. -/
theorem reference_eq (x0 : (⟨Cert.ReferenceIdeal.S2048x256, .f32⟩ : BufTy).Contents (Elt Ideal)) (x1 : (⟨Cert.ReferenceIdeal.S256x256x2, .f32⟩ : BufTy).Contents (Elt Ideal)) (x2 : (⟨Cert.ReferenceIdeal.S256x2, .f32⟩ : BufTy).Contents (Elt Ideal)) :
    Cert.ReferenceIdeal.Read.val_main_v53 (F := Ideal) x0 x1 x2
      = Cert.EdgeNode.G x0 (Cert.ReferenceIdeal.Read.val_main_v23 (F := Ideal) x1) (Cert.ReferenceIdeal.Read.val_main_v25 (F := Ideal) x1)
          (fun o => Cert.ReferenceIdeal.Read.val_main_v44 (F := Ideal) x2 (ValueIdx.ix1 o)) (fun o => Cert.ReferenceIdeal.Read.val_main_v49 (F := Ideal) x2 (ValueIdx.ix1 o)) := by
  funext j
  obtain ⟨b, o, rfl⟩ : ∃ (b : Fin 2048) (o : Fin 256), j = ix2 b o := ⟨j 0, j 1, eq_ix2 j⟩
  have e1 : idx_main_v45 (idx_main_v46 (ix2 b o)) = ix1 o := by
    funext a; match a with | ⟨0, _⟩ => rfl
  have e2 : idx_main_v50 (idx_main_v51 (ix2 b o)) = ix1 o := by
    funext a; match a with | ⟨0, _⟩ => rfl
  rw [val_main_v53_apply, val_main_v47_apply, val_main_v52_apply, val_main_v46_apply, val_main_v51_apply,
    val_main_v45_apply, val_main_v50_apply, e1, e2, andValue_eq, orValue_eq, G_apply]
  rfl

end Cert.EdgeNode.Ref

end
-- ==== Proof.SoftmaxSign.lean ====
/-
  The softmax over the pair axis never produces −∞ when its logits are real.

  At a triple index the softmax output is `exp (w − M)` divided by `0 + Σ_k exp (w_k − M)`, where `w`, `w_k` are the
  logits of the pair and `M` is the greater of −∞ and the pair's maximum taken from −∞. With real logits `M` is not
  +∞, so `w − M` is not −∞ and the numerator is positive; every summand of the denominator is an exponential, hence
  not negative. The division is `x · y⁻¹` off zero, a product of two nonnegative numbers, and by a zero denominator it is
  +∞ for a positive numerator. In every case the quotient is at least 0, which is above −∞. The second component of
  the softmax, re-laid as a 256 × 256 table, is such a quotient at each index.
-/
import proofs.«150702_j80041010528656_2_alg».proof.Proof.Gen.ReferenceIdeal.Read
import Idealize.ShloMosaic.Lib.ValueIdx
import Idealize.ShloMosaic.PureOps.Ideal.Laws

noncomputable section

namespace Cert.EdgeNode.Soft

open Idealize.ShloMosaic Idealize.ShloMosaic.ValueIdx
open Cert.ReferenceIdeal Cert.ReferenceIdeal.Gen Cert.ReferenceIdeal.Read

/-- The word of −∞ is the bottom element. -/
theorem bot_word : Ideal.ofBits .f32 0xFF800000#32 = (⊥ : EReal) := by simp [Ideal.ofBits, Ideal.ieee]

/-- The exponential is nowhere negative: 0 at −∞, +∞ at +∞, a positive real between. -/
theorem exp_nonneg (t : EReal) : 0 ≤ Ideal.exp t := by
  induction t using EReal.rec with
  | bot => exact le_of_eq Ideal.exp_bot.symm
  | coe r => rw [Ideal.exp_coe]; exact EReal.coe_nonneg.2 (Real.exp_pos r).le
  | top => rw [Ideal.exp_top]; exact le_top

/-- A real minus anything but +∞ is not −∞, so its exponential is positive. -/
theorem exp_sub_pos (r : ℝ) (M : EReal) (hM : M ≠ ⊤) : 0 < Ideal.exp ((r : EReal) - M) := by
  induction M using EReal.rec with
  | bot => rw [EReal.coe_sub_bot, Ideal.exp_top]; exact EReal.zero_lt_top
  | coe m => rw [← EReal.coe_sub, Ideal.exp_coe]; exact EReal.coe_pos.2 (Real.exp_pos _)
  | top => exact absurd rfl hM

/-- The greatest of finitely many reals, taken from −∞, is not +∞. -/
theorem fold_max_ne_top {n : Nat} (f : Fin n → EReal) (hf : ∀ k, ∃ r : ℝ, f k = (r : EReal)) :
    max ⊥ ((Finset.univ : Finset (Fin n)).fold max ⊥ f) ≠ ⊤ := by
  rw [max_bot_left]
  refine ne_of_lt ((Finset.fold_max_lt _).2 ⟨bot_lt_top, fun k _ => ?_⟩)
  obtain ⟨r, hr⟩ := hf k
  rw [hr]; exact EReal.coe_lt_top r

/-- The shape relation of the softmax's two reductions over the pair axis. -/
theorem pairAxis : S256x256x2.Reduces [2] S256x256 := by decide

/-- The exponentials the softmax divides are nowhere negative. -/
theorem numer_nonneg (x1 : (⟨S256x256x2, .f32⟩ : BufTy).Contents (Elt Ideal)) (J : S256x256x2.Idx) :
    0 ≤ val_main_v6 (F := Ideal) x1 J := by
  rw [val_main_v6_apply, Ideal.hostUnary_exp_def]; exact exp_nonneg _

/-- … and positive where the logits are real: the shift is the pair's maximum, which is not +∞. -/
theorem numer_pos (x1 : (⟨S256x256x2, .f32⟩ : BufTy).Contents (Elt Ideal)) (hx1 : ∀ i, ∃ r : ℝ, x1 i = (r : EReal))
    (J : S256x256x2.Idx) : 0 < val_main_v6 (F := Ideal) x1 J := by
  rw [val_main_v6_apply, Ideal.hostUnary_exp_def, val_main_v5_apply, Ideal.subf_def, val_main_v4_apply, val_main_v3_apply,
    val_main_v2_apply, Ideal.maximumf_def, val_main_v1_apply, val_main_cst_0_apply, Ideal.ofBits_def, bot_word]
  unfold val_main_v0
  rw [Host.reduce_eq_fold_single _ _ _ _ pairAxis _ _, val_main_cst_apply, Ideal.ofBits_def, bot_word]
  obtain ⟨r, hr⟩ := hx1 J
  rw [hr]
  exact exp_sub_pos r _ (fold_max_ne_top _ fun k => hx1 _)

/-- The sum of the exponentials is not negative. -/
theorem denom_nonneg (x1 : (⟨S256x256x2, .f32⟩ : BufTy).Contents (Elt Ideal)) (J : S256x256x2.Idx) :
    0 ≤ val_main_v9 (F := Ideal) x1 J := by
  rw [val_main_v9_apply, val_main_v8_apply, val_main_v7_apply, val_main_cst_1_apply, Ideal.ofBits_def, Ideal.ofBits_zero_f32,
    zero_add]
  exact Finset.sum_nonneg fun k _ => numer_nonneg x1 _

/-- Every softmax output over real logits is nonnegative (possibly +∞), never −∞. -/
theorem softmax_nonneg (x1 : (⟨S256x256x2, .f32⟩ : BufTy).Contents (Elt Ideal)) (hx1 : ∀ i, ∃ r : ℝ, x1 i = (r : EReal))
    (J : S256x256x2.Idx) : 0 ≤ val_main_v10 (F := Ideal) x1 J := by
  rw [val_main_v10_apply, Ideal.hostDivf_def]
  unfold Ideal.div
  split_ifs with hy hx
  · exact le_top
  · exact absurd (numer_pos x1 hx1 J) hx
  · exact mul_nonneg (numer_nonneg x1 J) (EReal.inv_nonneg_of_nonneg (denom_nonneg x1 J))

/-- The table of second components has no −∞ entry. -/
theorem noedge_ne_bot (x1 : (⟨Cert.ReferenceIdeal.S256x256x2, .f32⟩ : BufTy).Contents (Elt Ideal)) (hx1 : ∀ i, ∃ r : ℝ, x1 i = (r : EReal)) (i : Cert.ReferenceIdeal.S256x256.Idx) :
    Cert.ReferenceIdeal.Read.val_main_v25 (F := Ideal) x1 i ≠ ⊥ := by
  rw [val_main_v25_apply, val_main_v24_apply]
  exact ne_of_gt (lt_of_lt_of_le EReal.bot_lt_zero (softmax_nonneg x1 hx1 _))

end Cert.EdgeNode.Soft

end
-- ==== Proof.FiniteInputs.lean ====
/-
  Under the precondition "every input is finite" the entries of the second argument are real numbers.

  The printed predicate tests, for each of the three arguments, that every entry's absolute value is below the word of
  +∞, and conjoins the three answers. An extended real whose absolute value is below +∞ is neither infinity, hence a
  real. Read at the predicate's one index, the conjunction gives the middle test, the middle test gives the comparison at
  every index of the second argument, and the comparison gives the real.
-/
import proofs.«150702_j80041010528656_2_alg».proof.Pre_finite_inputs
import proofs.«150702_j80041010528656_2_alg».proof.Proof.Gen.Pre_finite_inputs
import Idealize.ShloMosaic.Lib.ReduceAll
import Idealize.ShloMosaic.Lib.ValueIdx
import Idealize.ShloMosaic.PureOps.Ideal

noncomputable section

namespace Cert.EdgeNode.Fin

open Idealize.ShloMosaic Idealize.ShloMosaic.ValueIdx

/-- The scalar shape has one index. -/
instance : Subsingleton Cert.Pre_finite_inputs.S_.Idx := ⟨fun a b => funext fun d => d.elim0⟩

/-- A decided comparison printed as a one-bit word is 1 exactly when it holds. -/
theorem ofBool_eq_one {b : Bool} : BitVec.ofBool b = 1#1 ↔ b = true := by cases b <;> decide

/-- An extended real whose absolute value `max x (−x)` is below the word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    have := ofBool_eq_one.1 h
    exact of_decide_eq_true this
  induction x using EReal.rec with
  | bot => exact absurd hlt (by simp)
  | coe r => exact ⟨r, rfl⟩
  | top => exact absurd hlt (by simp)

/-- Under the precondition every entry of the second argument is a real number: the predicate is the conjunction of three
    "all entries have absolute value below +∞" tests, one per argument, and the middle one speaks of this array. -/
theorem arg1_real [Cert.Pre_finite_inputs.Facts] (a0 : FVec Ideal Cert.Pre_finite_inputs.S2048x256 .f32) (a1 : FVec Ideal Cert.Pre_finite_inputs.S256x256x2 .f32) (a2 : FVec Ideal Cert.Pre_finite_inputs.S256x2 .f32)
    (h : Cert.Pre_finite_inputs.fn (F := Ideal) a0 a1 a2 = fun _ => 1#1) : ∀ i, ∃ r : ℝ, a1 i = (r : EReal) := by
  intro i
  have h0 := congrFun h ix0
  dsimp only [Cert.Pre_finite_inputs.fn] at h0
  obtain ⟨h01, _⟩ := IntOp.andi_eq_one.1 h0
  obtain ⟨_, h1⟩ := IntOp.andi_eq_one.1 h01
  have he := Host.reduce_andi_all _ _ _ _ _ h1 i
  exact real_of_abs_lt (a1 i) he

end Cert.EdgeNode.Fin

end
-- ==== Proof.HostGlue.lean ====
/-
  The probability tables the kernel stages are the reference's.

  Before its grid loop the kernel program turns its two logit arguments into probabilities by host operations: a
  softmax over the last axis (of size 2) of the `[256,256,2]` argument and of the `[256,2]` argument — the maximum
  along the axis, the exponentials of the differences from it, their sum along the axis, the quotient of each
  exponential by that sum. It then cuts each softmax into its two columns and drops the unit axis: of the
  `[256,256,2]` one, `[:, :, 0:1]` and `[:, :, 1:2]`, each reshaped to `[256,256]`; of the `[256,2]` one, `[:, 0:1]`
  and `[:, 1:2]`, each reshaped to `[256]` and then to the row `[1,256]`.

  The reference program begins with the same operations, in the same order, on the same two arguments: its stages
  `%0 … %25` are the softmaxes and the two `[256,256]` columns, its stages `%43, %44` and `%48, %49` the two `[256]`
  columns. So what each of the four arrays holds when the grid loop is entered — the composition of the host
  operations that feed it, applied to the launch contents of one argument, every other operation writing elsewhere —
  is, term for term, the reference's stage unfolded down to its argument: the same tree of operations, over the two
  programs' separately named but equal shapes and side conditions. (Moving contents between a value's type and its
  buffer's type is transport along a reflexive equation, the identity.)

  For the two `[1,256]` rows the kernel has one reshape more than the reference. A reshape keeps row-major positions,
  and entry `(0,o)` of the row and entry `o` of the `[256]` vector both sit at position `o`.
-/
import proofs.«150702_j80041010528656_2_alg».proof.Proof.Gen.KernelIdeal.Frame
import proofs.«150702_j80041010528656_2_alg».proof.Proof.Gen.ReferenceIdeal.Read
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.EdgeNode.Glue

open Cert.KernelIdeal Cert.KernelIdeal.Gen
open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

set_option maxHeartbeats 400000 in
/-- Column 0 of the softmax of the `[256,256,2]` argument, as a `[256,256]` matrix: when the grid loop is entered the
    array `main_call0_v23` holds the reference's stage `%23` of the same argument. Both are the reshape of the slice
    `[:, :, 0:1]` of the quotient of the shifted exponentials by their sums along the last axis. -/
theorem glue_pe (c : Dev Cert.KernelIdeal.nD) :
    (V m c main_call0_v23 : S256x256.Idx → EReal)
      = Cert.ReferenceIdeal.Read.val_main_v23 (F := Ideal) (m ((c : Thread nD τ).loc main_arg1)) := by
  dsimp only [Gen.V, Gen.hostOps0]
  after_results
  dsimp only [StableHlo.TRef.ofBuf, StableHlo.TRef.toBuf, cast_eq]
  rw [Cert.ReferenceIdeal.Read.val_main_v23, Cert.ReferenceIdeal.Read.val_main_v22, Cert.ReferenceIdeal.Read.val_main_v10, Cert.ReferenceIdeal.Read.val_main_v9, Cert.ReferenceIdeal.Read.val_main_v8, Cert.ReferenceIdeal.Read.val_main_v7, Cert.ReferenceIdeal.Read.val_main_cst_1, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_cst_0, Cert.ReferenceIdeal.Read.val_main_v0, Cert.ReferenceIdeal.Read.val_main_cst]
  rfl

set_option maxHeartbeats 400000 in
/-- Column 1 of the same softmax, as a `[256,256]` matrix: the array `main_call0_v25` holds the reference's stage
    `%25`, the reshape of the slice `[:, :, 1:2]`. -/
theorem glue_pn (c : Dev Cert.KernelIdeal.nD) :
    (V m c main_call0_v25 : S256x256.Idx → EReal)
      = Cert.ReferenceIdeal.Read.val_main_v25 (F := Ideal) (m ((c : Thread nD τ).loc main_arg1)) := by
  dsimp only [Gen.V, Gen.hostOps0]
  after_results
  dsimp only [StableHlo.TRef.ofBuf, StableHlo.TRef.toBuf, cast_eq]
  rw [Cert.ReferenceIdeal.Read.val_main_v25, Cert.ReferenceIdeal.Read.val_main_v24, Cert.ReferenceIdeal.Read.val_main_v10, Cert.ReferenceIdeal.Read.val_main_v9, Cert.ReferenceIdeal.Read.val_main_v8, Cert.ReferenceIdeal.Read.val_main_v7, Cert.ReferenceIdeal.Read.val_main_cst_1, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_cst_0, Cert.ReferenceIdeal.Read.val_main_v0, Cert.ReferenceIdeal.Read.val_main_cst]
  rfl

set_option maxHeartbeats 1000000 in
/-- Column 0 of the softmax of the `[256,2]` argument, as a row: the array `main_call0_v28` is the `[1,256]` row whose
    entry `(0,o)` is the reference's stage `%44` at `o`. The kernel reshapes the reference's `[256]` vector once more,
    to `[1,256]`; entry `(0,o)` of the row and entry `o` of the vector have the same row-major position `o`. -/
theorem glue_n0 (c : Dev Cert.KernelIdeal.nD) (o : Fin 256) :
    (V m c main_call0_v28 : S1x256.Idx → EReal) (ix2 (0 : Fin 1) o)
      = Cert.ReferenceIdeal.Read.val_main_v44 (F := Ideal) (m ((c : Thread nD τ).loc main_arg2)) (ix1 o) := by
  have e : (V m c main_call0_v28 : S1x256.Idx → EReal)
      = shapeCast S1x256 (Cert.ReferenceIdeal.Read.val_main_v44 (F := Ideal) (m ((c : Thread nD τ).loc main_arg2)) : Vec Ideal S256 .f32)
          shapeCasts_S256_S1x256 := by
    dsimp only [Gen.V, Gen.hostOps0]
    after_results
    dsimp only [StableHlo.TRef.ofBuf, StableHlo.TRef.toBuf, cast_eq]
    rw [Cert.ReferenceIdeal.Read.val_main_v44, Cert.ReferenceIdeal.Read.val_main_v43, Cert.ReferenceIdeal.Read.val_main_v21, Cert.ReferenceIdeal.Read.val_main_v20, Cert.ReferenceIdeal.Read.val_main_v19, Cert.ReferenceIdeal.Read.val_main_v18, Cert.ReferenceIdeal.Read.val_main_cst_4, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_cst_3, Cert.ReferenceIdeal.Read.val_main_v11, Cert.ReferenceIdeal.Read.val_main_cst_2]
    rfl
  rw [e]
  exact shapeCast_apply _ shapeCasts_S256_S1x256 (ix2 (0 : Fin 1) o) (ix1 o)
    (by rw [Shape.rowMajor_val_one, Shape.rowMajor_val_two]; show o.val = 0 * 256 + o.val; omega)

set_option maxHeartbeats 1000000 in
/-- Column 1 of the softmax of the `[256,2]` argument, as a row: the array `main_call0_v31` is the `[1,256]` row whose
    entry `(0,o)` is the reference's stage `%49` at `o`, by the same reading of the extra reshape. -/
theorem glue_n1 (c : Dev Cert.KernelIdeal.nD) (o : Fin 256) :
    (V m c main_call0_v31 : S1x256.Idx → EReal) (ix2 (0 : Fin 1) o)
      = Cert.ReferenceIdeal.Read.val_main_v49 (F := Ideal) (m ((c : Thread nD τ).loc main_arg2)) (ix1 o) := by
  have e : (V m c main_call0_v31 : S1x256.Idx → EReal)
      = shapeCast S1x256 (Cert.ReferenceIdeal.Read.val_main_v49 (F := Ideal) (m ((c : Thread nD τ).loc main_arg2)) : Vec Ideal S256 .f32)
          shapeCasts_S256_S1x256 := by
    dsimp only [Gen.V, Gen.hostOps0]
    after_results
    dsimp only [StableHlo.TRef.ofBuf, StableHlo.TRef.toBuf, cast_eq]
    rw [Cert.ReferenceIdeal.Read.val_main_v49, Cert.ReferenceIdeal.Read.val_main_v48, Cert.ReferenceIdeal.Read.val_main_v21, Cert.ReferenceIdeal.Read.val_main_v20, Cert.ReferenceIdeal.Read.val_main_v19, Cert.ReferenceIdeal.Read.val_main_v18, Cert.ReferenceIdeal.Read.val_main_cst_4, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_cst_3, Cert.ReferenceIdeal.Read.val_main_v11, Cert.ReferenceIdeal.Read.val_main_cst_2]
    rfl
  rw [e]
  exact shapeCast_apply _ shapeCasts_S256_S1x256 (ix2 (0 : Fin 1) o) (ix1 o)
    (by rw [Shape.rowMajor_val_one, Shape.rowMajor_val_two]; show o.val = 0 * 256 + o.val; omega)

end Cert.EdgeNode.Glue

end
-- ==== Proof.lean ====
/-
  The kernel and the reference compute one function on the extended reals.

  For a batch row b and an output unit o, with pe[o,i] / pn[o,i] the softmax probabilities that feature i is / is not
  wired to o and n0[o] / n1[o] the softmax probabilities that o is an "and" / an "or" unit, both programs return

      G(b,o) = (min over i of x[b,i]·pe[o,i] + 1·pn[o,i]) · n0[o] + (max over i of x[b,i]·pe[o,i] + (−1)·pn[o,i]) · n1[o].

  The reference takes the two extrema over all 256 features at once. The kernel tiles the result in 128 × 128 blocks
  and, per block, accumulates each extremum over the features 0…127 and then 128…255, forming the "or" term by adding
  (−2)·pn to the "and" term. A minimum (maximum) over 256 features is the minimum (maximum) of the two halves'
  extrema, and a + 1·p + (−2)·p = a + (−1)·p whenever p is not −∞; pn is a softmax component of a finite argument,
  hence nonnegative, so the shift is sound under the precondition. Both programs compute the four probability tables
  by the same host operations of the same arguments.

  The three frames: both kernels' runs terminate without a fault and leave the arguments as they were, and so does the
  reference's run. The idealized kernel is the word-level kernel's text read on the extended reals: no rewrite to
  account for.
-/
import proofs.«150702_j80041010528656_2_alg».proof.Defs
import proofs.«150702_j80041010528656_2_alg».proof.Proof.Gen.Kernel
import proofs.«150702_j80041010528656_2_alg».proof.Proof.Gen.Kernel.Skeleton
import proofs.«150702_j80041010528656_2_alg».proof.Proof.Gen.Kernel.Loops
import proofs.«150702_j80041010528656_2_alg».proof.Proof.Gen.Kernel.Launch
import proofs.«150702_j80041010528656_2_alg».proof.Proof.Gen.Kernel.Points
import proofs.«150702_j80041010528656_2_alg».proof.Proof.Gen.Kernel.Frame
import proofs.«150702_j80041010528656_2_alg».proof.Proof.Gen.KernelIdeal
import proofs.«150702_j80041010528656_2_alg».proof.Proof.Gen.KernelIdeal.Skeleton
import proofs.«150702_j80041010528656_2_alg».proof.Proof.Gen.KernelIdeal.Loops
import proofs.«150702_j80041010528656_2_alg».proof.Proof.Gen.KernelIdeal.Launch
import proofs.«150702_j80041010528656_2_alg».proof.Proof.Gen.KernelIdeal.Points
import proofs.«150702_j80041010528656_2_alg».proof.Proof.Gen.KernelIdeal.Frame
import proofs.«150702_j80041010528656_2_alg».proof.Proof.Gen.ReferenceIdeal
import proofs.«150702_j80041010528656_2_alg».proof.Proof.Gen.Pre_finite_inputs
import proofs.«150702_j80041010528656_2_alg».proof.Proof.Gen.KernelIdeal.Value
import proofs.«150702_j80041010528656_2_alg».proof.Proof.Gen.ReferenceIdeal.Run
import proofs.«150702_j80041010528656_2_alg».proof.Proof.Gen.ReferenceIdeal.Read
import proofs.«150702_j80041010528656_2_alg».proof.Proof.FinalArray
import proofs.«150702_j80041010528656_2_alg».proof.Proof.ReferenceValue
import proofs.«150702_j80041010528656_2_alg».proof.Proof.SoftmaxSign
import proofs.«150702_j80041010528656_2_alg».proof.Proof.FiniteInputs
import proofs.«150702_j80041010528656_2_alg».proof.Proof.HostGlue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel and the idealized kernel terminate without a fault and leave their arguments unchanged. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The function of the arrays the region finds is the specification's function of the arguments and of the
    reference's four probability tables: the region finds the batch array as launched, and the tables as the same
    operations of the same arguments leave them in both programs. -/
theorem regionValue_eq (m : (ℓ : Loc Cert.KernelIdeal.nD Cert.KernelIdeal.τ Cert.KernelIdeal.sig) → Buf (Elt Ideal) ℓ) (c : Dev Cert.KernelIdeal.nD) :
    Cert.EdgeNode.Kernel.regionValue m c
      = Cert.EdgeNode.G (m ((c : Thread Cert.KernelIdeal.nD Cert.KernelIdeal.τ).loc Cert.KernelIdeal.main_arg0))
          (Cert.ReferenceIdeal.Read.val_main_v23 (F := Ideal) (m ((c : Thread Cert.KernelIdeal.nD Cert.KernelIdeal.τ).loc Cert.KernelIdeal.main_arg1)))
          (Cert.ReferenceIdeal.Read.val_main_v25 (F := Ideal) (m ((c : Thread Cert.KernelIdeal.nD Cert.KernelIdeal.τ).loc Cert.KernelIdeal.main_arg1)))
          (fun o => Cert.ReferenceIdeal.Read.val_main_v44 (F := Ideal) (m ((c : Thread Cert.KernelIdeal.nD Cert.KernelIdeal.τ).loc Cert.KernelIdeal.main_arg2)) (ix1 o))
          (fun o => Cert.ReferenceIdeal.Read.val_main_v49 (F := Ideal) (m ((c : Thread Cert.KernelIdeal.nD Cert.KernelIdeal.τ).loc Cert.KernelIdeal.main_arg2)) (ix1 o)) := by
  unfold Cert.EdgeNode.Kernel.regionValue
  rw [Cert.EdgeNode.Glue.glue_pe m c, Cert.EdgeNode.Glue.glue_pn m c, Cert.KernelIdeal.Gen.V_main_arg0 m c,
    funext fun o => Cert.EdgeNode.Glue.glue_n0 m c o, funext fun o => Cert.EdgeNode.Glue.glue_n1 m c o]

/-- From memories agreeing on the arguments both idealized programs end with the specification's function of the
    arguments in their result. The kernel's shift from the "and" term to the "or" term needs a no-edge table without
    −∞: the table is a softmax component of a finite argument, hence nonnegative. -/
theorem algebraic : Cert.algebraic_KernelIdeal_ReferenceIdeal := by
  intro m ρ m' ρ' hpre hagree
  have hpn : ∀ (c : Dev Cert.KernelIdeal.nD) j,
      (Cert.KernelIdeal.Gen.V m c Cert.KernelIdeal.main_call0_v25 : Cert.EdgeNode.SP.Idx → EReal) j ≠ (⊥ : EReal) := fun c j => by
    rw [Cert.EdgeNode.Glue.glue_pn m c]
    exact Cert.EdgeNode.Soft.noedge_ne_bot _ (Cert.EdgeNode.Fin.arg1_real _ _ _ (hpre c)) j
  refine ⟨fun c => Cert.EdgeNode.Kernel.regionValue m c, Cert.EdgeNode.Kernel.run m ρ hpn, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.EdgeNode.Ref.reference_eq, (hagree c).1, (hagree c).2.1, (hagree c).2.2]
  exact (regionValue_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
